-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S1600000 : Shape := ⟨1, ![1600000]⟩
abbrev S1x32 : Shape := ⟨2, ![1, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x1 .f32) (main_arg1 : IVec S1600000 32) (main_arg2 : IVec S1600000 32) (main_arg3 : FVec F S1x32 .f32) (main_arg4 : FVec F S32 .f32) (main_arg5 : FVec F S32x1 .f32) (main_arg6 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x32 .f32 := Host.absf main_arg3
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg5
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg6 main_v13 main_v16
-- ==== Kernel.lean ====
abbrev S100000x1 : Shape := ⟨2, ![100000, 1]⟩
abbrev S1600000 : Shape := ⟨1, ![1600000]⟩
abbrev S1x32 : Shape := ⟨2, ![1, 32]⟩
abbrev S32 : Shape := ⟨1, ![32]⟩
abbrev S32x1 : Shape := ⟨2, ![32, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S1000x1 : Shape := ⟨2, ![1000, 1]⟩
abbrev S1000x32 : Shape := ⟨2, ![1000, 32]⟩
abbrev S1x1 : Shape := ⟨2, ![1, 1]⟩

abbrev nBuf : Space → Nat
  | .hbm => 50
  | .vmem => 24
  | .smem => 0
  | _ => 0

abbrev bufTy : (tb : Table) → Fin (tcTables nBuf tb) → BufTy
  | .hbm, ⟨0, _⟩ => ⟨S100000x1, .f32⟩
  | .hbm, ⟨1, _⟩ => ⟨S1600000, .i32⟩
  | .hbm, ⟨2, _⟩ => ⟨S1600000, .i32⟩
  | .hbm, ⟨3, _⟩ => ⟨S1x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S100000x1, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S100000x1, .f32⟩
  | .hbm, ⟨19, _⟩ => ⟨S100000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S1x32, .f32⟩
  | .hbm, ⟨34, _⟩ => ⟨S100000x1, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x1, .f32⟩
  | .hbm, ⟨44, _⟩ => ⟨S_, .f32⟩
  | .hbm, ⟨45, _⟩ => ⟨S100000x1, .f32⟩
  | .hbm, ⟨46, _⟩ => ⟨S1600000x1, .i32⟩
  | .hbm, ⟨47, _⟩ => ⟨S100000x1, .f32⟩
  | .hbm, ⟨48, _⟩ => ⟨S1x1, .f32⟩
  | .hbm, ⟨49, _⟩ => ⟨S100000x1, .f32⟩
  | .local _ .vmem, ⟨0, _⟩ => ⟨S1000x1, .f32⟩
  | .local _ .vmem, ⟨1, _⟩ => ⟨S1000x1, .f32⟩
  | .local _ .vmem, ⟨2, _⟩ => ⟨S1000x1, .f32⟩
  | .local _ .vmem, ⟨3, _⟩ => ⟨S1000x1, .f32⟩
  | .local _ .vmem, ⟨4, _⟩ => ⟨S1000x1, .f32⟩
  | .local _ .vmem, ⟨5, _⟩ => ⟨S1000x1, .f32⟩
  | .local _ .vmem, ⟨6, _⟩ => ⟨S1000x1, .f32⟩
  | .local _ .vmem, ⟨7, _⟩ => ⟨S1000x1, .f32⟩
  | .local _ .vmem, ⟨8, _⟩ => ⟨S1000x1, .f32⟩
  | .local _ .vmem, ⟨9, _⟩ => ⟨S1000x1, .f32⟩
  | .local _ .vmem, ⟨10, _⟩ => ⟨S1000x1, .f32⟩
  | .local _ .vmem, ⟨11, _⟩ => ⟨S1000x1, .f32⟩
  | .local _ .vmem, ⟨12, _⟩ => ⟨S1x32, .f32⟩
  | .local _ .vmem, ⟨13, _⟩ => ⟨S1x32, .f32⟩
  | .local _ .vmem, ⟨14, _⟩ => ⟨S32x1, .f32⟩
  | .local _ .vmem, ⟨15, _⟩ => ⟨S1000x1, .f32⟩
  | .local _ .vmem, ⟨16, _⟩ => ⟨S1000x1, .f32⟩
  | .local _ .vmem, ⟨17, _⟩ => ⟨S1000x1, .f32⟩
  | .local _ .vmem, ⟨18, _⟩ => ⟨S1000x1, .f32⟩
  | .local _ .vmem, ⟨19, _⟩ => ⟨S1000x1, .f32⟩
  | .local _ .vmem, ⟨20, _⟩ => ⟨S1000x1, .f32⟩
  | .local _ .vmem, ⟨21, _⟩ => ⟨S1x1, .f32⟩
  | .local _ .vmem, ⟨22, _⟩ => ⟨S1000x1, .f32⟩
  | .local _ .vmem, ⟨23, _⟩ => ⟨S1000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  bcast_S_S100000x1 : S_.BroadcastsInDim S100000x1 (![] : Fin 0 → Fin S100000x1.rank)
  shapeCasts_S32_S1x32 : S32.ShapeCasts S1x32
  inb_S1x32_S1x32_0_0 : ∀ a, (![0, 0] : Fin 2 → Nat) a + S1x32.size a ≤ S1x32.size a
  h_S1x32 : 0 < S1x32.numel
  bitsLt_bf16_f32 : FTy.bits .bf16 < FTy.bits .f32
  shapeCasts_S1x32_S1x32 : S1x32.ShapeCasts S1x32
  broadcasts_S1x32_S1000x32 : S1x32.Broadcasts S1000x32
  broadcasts_S1000x1_S1000x32 : S1000x1.Broadcasts S1000x32
  inb_S32x1_S32x1_0_0 : ∀ a, (![0, 0] : Fin 2 → Nat) a + S32x1.size a ≤ S32x1.size a
  h_S32x1 : 0 < S32x1.numel
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S1000x1_S1x32_S1000x32_1_0_0_1_n_n_wf : DotDims.WF S1000x1 S1x32 S1000x32 [1] [0] [0] [1] [] []
  dot_S1000x32_S32x1_S1000x1_1_0_0_1_n_n_wf : DotDims.WF S1000x32 S32x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1.size a ≤ S100000x1.size a
  hwx0_0 : ∀ i : grid0.Coords, EltTy.bits .f32 = 32 ∨ (Rect.block (s := S100000x1) S1000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S100000x1.size a
  hwx0_1 : ∀ i : grid0.Coords, EltTy.bits .f32 = 32 ∨ (Rect.block (s := S100000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S100000x1.size a
  hwx0_2 : ∀ i : grid0.Coords, EltTy.bits .f32 = 32 ∨ (Rect.block (s := S100000x1) S1000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1.size a ≤ S100000x1.size a
  hwx1_0 : ∀ i : grid1.Coords, EltTy.bits .f32 = 32 ∨ (Rect.block (s := S100000x1) S1000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S100000x1.size a
  hwx1_1 : ∀ i : grid1.Coords, EltTy.bits .f32 = 32 ∨ (Rect.block (s := S100000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S100000x1.size a
  hwx1_2 : ∀ i : grid1.Coords, EltTy.bits .f32 = 32 ∨ (Rect.block (s := S100000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x1.size a ≤ S32x1.size a
  hwx1_5 : ∀ i : grid1.Coords, EltTy.bits .f32 = 32 ∨ (Rect.block (s := S32x1) S32x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x1.size a ≤ S100000x1.size a
  hwx1_6 : ∀ i : grid1.Coords, EltTy.bits .f32 = 32 ∨ (Rect.block (s := S100000x1) S1000x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x1.size a ≤ S100000x1.size a
  hwx2_0 : ∀ i : grid2.Coords, EltTy.bits .f32 = 32 ∨ (Rect.block (s := S100000x1) S1000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S100000x1.size a
  hwx2_1 : ∀ i : grid2.Coords, EltTy.bits .f32 = 32 ∨ (Rect.block (s := S100000x1) S1000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x1.size a ≤ S100000x1.size a
  hwx2_3 : ∀ i : grid2.Coords, EltTy.bits .f32 = 32 ∨ (Rect.block (s := S100000x1) S1000x1.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S1000x1_S1x32_S1000x32_1_0_0_1_n_n : DotDims S1000x1 S1x32 S1000x32 where
  lhsContracting := [1]
  rhsContracting := [0]
  lhsNonContracting := [0]
  rhsNonContracting := [1]
  lhsBatch := []
  rhsBatch := []
  wf := dot_S1000x1_S1x32_S1000x32_1_0_0_1_n_n_wf
def dot_S1000x32_S32x1_S1000x1_1_0_0_1_n_n : DotDims S1000x32 S32x1 S1000x1 where
  lhsContracting := [1]
  rhsContracting := [0]
  lhsNonContracting := [0]
  rhsNonContracting := [1]
  lhsBatch := []
  rhsBatch := []
  wf := dot_S1000x32_S32x1_S1000x1_1_0_0_1_n_n_wf

abbrev win0_0 : Pipeline.Window sig grid0 :=
  Pipeline.Window.ofSpec (Memref.whole main_arg0) S1000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S1000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S32x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S1000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x1 : Shape := ⟨2, ![100000, 1]⟩
abbrev S1600000 : Shape := ⟨1, ![1600000]⟩
abbrev S1x32 : Shape := ⟨2, ![1, 32]⟩
abbrev S32 : Shape := ⟨1, ![32]⟩
abbrev S32x1 : Shape := ⟨2, ![32, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x32 : Shape := ⟨2, ![100000, 32]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S1600000, .i32⟩
  | .hbm, ⟨2, _⟩ => ⟨S1600000, .i32⟩
  | .hbm, ⟨3, _⟩ => ⟨S1x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x1, .f32⟩
  | .hbm, ⟨36, _⟩ => ⟨S_, .f32⟩
  | .hbm, ⟨37, _⟩ => ⟨S100000x1, .f32⟩
  | .hbm, ⟨38, _⟩ => ⟨S1600000x1, .i32⟩
  | .hbm, ⟨39, _⟩ => ⟨S100000x1, .f32⟩
  | .hbm, ⟨40, _⟩ => ⟨S100000x32, .f32⟩
  | .hbm, ⟨41, _⟩ => ⟨S100000x1, .f32⟩
  | .hbm, ⟨42, _⟩ => ⟨S100000x32, .f32⟩
  | .hbm, ⟨43, _⟩ => ⟨S100000x32, .f32⟩
  | .hbm, ⟨44, _⟩ => ⟨S1x32, .f32⟩
  | .hbm, ⟨45, _⟩ => ⟨S100000x32, .f32⟩
  | .hbm, ⟨46, _⟩ => ⟨S100000x32, .f32⟩
  | .hbm, ⟨47, _⟩ => ⟨S_, .f32⟩
  | .hbm, ⟨48, _⟩ => ⟨S100000x32, .f32⟩
  | .hbm, ⟨49, _⟩ => ⟨S100000x32, .f32⟩
  | .hbm, ⟨50, _⟩ => ⟨S_, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x32, .f32⟩
  | .hbm, ⟨70, _⟩ => ⟨S100000x32, .f32⟩
  | .hbm, ⟨71, _⟩ => ⟨S100000x1, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x1, .f32⟩
  | .hbm, ⟨81, _⟩ => ⟨S_, .f32⟩
  | .hbm, ⟨82, _⟩ => ⟨S100000x1, .f32⟩
  | .hbm, ⟨83, _⟩ => ⟨S1600000x1, .i32⟩
  | .hbm, ⟨84, _⟩ => ⟨S100000x1, .f32⟩
  | .hbm, ⟨85, _⟩ => ⟨S100000x1, .f32⟩
  | .hbm, ⟨86, _⟩ => ⟨S100000x1, .f32⟩
  | .hbm, ⟨87, _⟩ => ⟨S1x1, .f32⟩
  | .hbm, ⟨88, _⟩ => ⟨S100000x1, .f32⟩
  | .hbm, ⟨89, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_cst : Ref sig .tc := ⟨.hbm, 47, rfl⟩
abbrev main_call0_v0 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x32_S100000x32_1_0_0_1_n_n_wf : DotDims.WF S100000x1 S1x32 S100000x32 [1] [0] [0] [1] [] []
  dot_S100000x32_S32x1_S100000x1_1_0_0_1_n_n_wf : DotDims.WF S100000x32 S32x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x32_S100000x32_1_0_0_1_n_n : DotDims S100000x1 S1x32 S100000x32 where
  lhsContracting := [1]
  rhsContracting := [0]
  lhsNonContracting := [0]
  rhsNonContracting := [1]
  lhsBatch := []
  rhsBatch := []
  wf := dot_S100000x1_S1x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.ResultRun.lean ====
/-
  The kernel program's run with its result buffer named. The program is three kernel regions among three stretches
  of host operations; the buffer contents at each boundary are a fold from the launch memory, ending at `Gen.W6`.
  Every weakly fair execution terminates, and at the end the result buffer holds `Gen.W6` at that buffer while the
  seven argument arrays are as launched.
-/
import proofs.«138436_j60833916780698_2_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the argument arrays end as launched. The launch over the program's six segments, the last
    thread state (every unscoped buffer at the last boundary's contents) read against the final state. -/
theorem run : θ_run defs (onTc (τ := τ) (main (F := F))) ⟨m, fun _ => 0, ρ⟩ (fun r => ∀ c : Dev nD,
      r.2.mem ((c.tc : Thread nD τ).loc main_v33) = W6 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v33 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.ResultRun

end
-- ==== Proof.LayerSpec.lean ====
/-
  Two graph-convolution layers over a graph of 100000 nodes, each node carrying one number, written as three
  whole-array functions of the node columns.

  A node's degree is clamped below at one and enters only through its inverse square root (`invRoot`).
  * `scaledInput x d`: node `n` holds `x n · invRoot (d n)` — the first layer's input, scaled by the out-degree.
  * `hidden a din dout w1 b1 w2`: from the aggregated scaled input `a`, node `n` holds
    `∑ k, max (a n · invRoot (din n) · w1 k + b1 k) 0 · invRoot (dout n) · w2 k` — the first layer's 32 features
    (in-degree scaling, the 1 × 32 weight, the bias, the rectifier), scaled by the out-degree and contracted with the
    32 × 1 weight of the second layer. Each node's value depends on that node's row only.
  * `output a din b`: node `n` holds `a n · invRoot (din n) + b` — the second layer's aggregate scaled by the
    in-degree, plus its bias.
-/
import Idealize.ShloMosaic.PureOps.Ideal
import Idealize.ShloMosaic.Lib.ValueIdx

noncomputable section

open scoped BigOperators

namespace Cert.GConv

open Idealize.ShloMosaic Idealize.ShloMosaic.ValueIdx

/-- The inverse square root of a degree clamped below at one. -/
def invRoot (d : EReal) : EReal := Ideal.rsqrt (max d (Ideal.ofBits .f32 0x3F800000#32))

/-- One node's value after the fused stage: its 32 rectified first-layer features, scaled by the out-degree and
    contracted with the second layer's weight. -/
def nodeHidden (a din dout : EReal) (w1 b1 : (⟨2, ![1, 32]⟩ : Shape).Idx → EReal)
    (w2 : (⟨2, ![32, 1]⟩ : Shape).Idx → EReal) : EReal :=
  ∑ k : Fin 32, max (a * invRoot din * w1 (ix2 0 k) + b1 (ix2 0 k)) (Ideal.ofBits .f32 0x00000000#32)
    * invRoot dout * w2 (ix2 k 0)

/-- The first layer's input, each node scaled by the inverse root of its out-degree. -/
def scaledInput (x d : (⟨2, ![100000, 1]⟩ : Shape).Idx → EReal) : (⟨2, ![100000, 1]⟩ : Shape).Idx → EReal :=
  fun i => x i * invRoot (d i)

/-- The fused stage on every node. -/
def hidden (a din dout : (⟨2, ![100000, 1]⟩ : Shape).Idx → EReal) (w1 b1 : (⟨2, ![1, 32]⟩ : Shape).Idx → EReal)
    (w2 : (⟨2, ![32, 1]⟩ : Shape).Idx → EReal) : (⟨2, ![100000, 1]⟩ : Shape).Idx → EReal :=
  fun i => nodeHidden (a i) (din i) (dout i) w1 b1 w2

/-- The second layer's aggregate scaled by the inverse root of the in-degree, plus the bias. -/
def output (a din : (⟨2, ![100000, 1]⟩ : Shape).Idx → EReal) (b : (⟨2, ![1, 1]⟩ : Shape).Idx → EReal) :
    (⟨2, ![100000, 1]⟩ : Shape).Idx → EReal :=
  fun i => a i * invRoot (din i) + b (ix2 0 0)

end Cert.GConv

end
-- ==== Proof.InputScaling.lean ====
/-
  The first kernel region: every block of 1000 nodes is written with `x · invRoot(degree)` of the same 1000 nodes, and
  the 100 blocks tile the node column, so the region leaves `GConv.scaledInput` of the two columns it read.
-/
import proofs.«138436_j60833916780698_2_alg».proof.Proof.Gen.KernelIdeal.Frame
import proofs.«138436_j60833916780698_2_alg».proof.Proof.LayerSpec
import Idealize.ShloMosaic.Lib.Pipeline.Value
import Idealize.ShloMosaic.Lib.ValueIdx

set_option maxRecDepth 16384

noncomputable section

namespace Cert.KernelIdeal.InputScaling

open Idealize.ShloMosaic Idealize.ShloMosaic.TcCoe Idealize.ShloMosaic.ValueIdx Idealize.SL.Sem
open Idealize.ShloMosaic.Pipeline (Dat)
open Cert.KernelIdeal Cert.KernelIdeal.Gen Cert.GConv

variable (V : (c : Dev nD) → (b : Ref sig .tc) → Buf (Elt Ideal) ((c : Thread nD τ).loc b))

theorem offset_zero : (![0, 0] : Fin 2 → Nat) = fun _ => 0 := funext fun a => by fin_cases a <;> rfl

/-- The stored value at a row of the block: the loaded input times the inverse root of the loaded degree. -/
theorem stored_apply (v0 v5 : Vec Ideal S1000x1 .f32) (j : S1000x1.Idx) :
    k0_pay1 (F := Ideal) v0 v5 j = v5 j * invRoot (v0 j) := by
  unfold k0_pay1
  simp only [shapeCast_self]
  rfl

/-- The scaled input read at an index, from the two columns read at equal indices. -/
theorem scaled_at (X D : S100000x1.Idx → EReal) (i0 i1 i2 : S100000x1.Idx) (h0 : i0 = i2) (h1 : i1 = i2) :
    X i0 * invRoot (D i1) = scaledInput X D i2 := by
  subst h0 h1; rfl

/-- Decided over the grid: at point `t` all three windows sit at block row `t`, block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `scaledInput` of the region's two input columns. -/
theorem flushed_eq (c : Dev nD) (t : Fin cfg0.N) :
    (dat0 V c).flushed 2 t
      = ((cfg0.win 2).blk t).view.read (Elt Ideal) (scaledInput (V c main_arg0) (V c main_v4)) := by
  show (cfg0.win 2).cut (grid0.coords t) ((dat0 V c).after 2 t) = _
  rw [after0_2]
  unfold out0_2
  rw [View.canon_unit_zero offset_zero]
  simp only [View.ld_unit_zero (S := S1000x1) offset_zero]
  obtain ⟨e0, e1, e2, e3, e4, e5⟩ := block_index t
  funext j
  refine (stored_apply (iblk0 V c 1 t) (iblk0 V c 0 t) j).trans ?_
  have h0 : ((cfg0.win 0).blk t).view.emb j = ((cfg0.win 2).blk t).view.emb j := by
    funext a; apply Fin.ext
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 1 + 1 * (j 1).val = win0_2.index t (1 : Fin 2) * 1 + 1 * (j 1).val; omega
  have h1 : ((cfg0.win 1).blk t).view.emb j = ((cfg0.win 2).blk t).view.emb j := by
    funext a; apply Fin.ext
    match a with
    | ⟨0, _⟩ => show win0_1.index t (0 : Fin 2) * 1000 + 1 * (j 0).val = win0_2.index t (0 : Fin 2) * 1000 + 1 * (j 0).val; omega
    | ⟨1, _⟩ => show win0_1.index t (1 : Fin 2) * 1 + 1 * (j 1).val = win0_2.index t (1 : Fin 2) * 1 + 1 * (j 1).val; omega
  exact scaled_at (V c main_arg0) (V c main_v4) (((cfg0.win 0).blk t).view.emb j) (((cfg0.win 1).blk t).view.emb j)
    (((cfg0.win 2).blk t).view.emb j) h0 h1

/-- A node is in point `t`'s block iff each coordinate is in the block's range on its axis. -/
theorem mem_blk (t : Fin cfg0.N) (i : S100000x1.Idx) :
    i ∈ ((cfg0.win 2).blk t).view.set ↔ ∀ a : Fin 2, win0_2.index t a * S1000x1.size a ≤ (i a).val
      ∧ (i a).val < win0_2.index t a * S1000x1.size a + S1000x1.size a := by
  show i ∈ ((View.whole main_v9).slice (win0_2.rect t)).set ↔ _
  rw [View.set_slice_whole, Rect.mem_set_unit]
  exact Iff.rfl

/-- Node `n` is in the block of point `n / 1000`: the 100 blocks tile the column. -/
theorem covered (i : S100000x1.Idx) :
    ∃ t : Fin cfg0.N, (cfg0.win 2).flush t = true ∧ i ∈ ((cfg0.win 2).blk t).view.set := by
  have hi0 : (i 0).val < 100000 := (i 0).isLt
  have hi1 : (i 1).val < 1 := (i 1).isLt
  have ht : (i 0).val / 1000 < cfg0.N := by show (i 0).val / 1000 < grid0.N; rw [N_0]; omega
  refine ⟨⟨(i 0).val / 1000, ht⟩, flush0_2 _, ?_⟩
  obtain ⟨-, -, -, -, e4, e5⟩ := block_index ⟨(i 0).val / 1000, ht⟩
  rw [mem_blk]
  intro a
  match a with
  | ⟨0, _⟩ =>
    show win0_2.index ⟨(i 0).val / 1000, ht⟩ (0 : Fin 2) * 1000 ≤ (i 0).val
      ∧ (i 0).val < win0_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, ht⟩ (1 : Fin 2) * 1 ≤ (i 1).val
      ∧ (i 1).val < win0_2.index ⟨(i 0).val / 1000, ht⟩ (1 : Fin 2) * 1 + 1
    rw [e5]; omega

/-- The region's output column after its 100 points: `scaledInput` of the two input columns as the region found them. -/
theorem final (c : Dev nD) :
    (dat0 V c).arrAt 2 cfg0.N = scaledInput (V c main_arg0) (V c main_v4) :=
  (dat0 V c).arrAt_eq_of_cover 2 _ (fun t _ => flushed_eq V c t) covered

end Cert.KernelIdeal.InputScaling

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.FusedStage.lean ====
/-
  The second kernel region: every block of 1000 nodes is written, row by row, with `GConv.nodeHidden` of the same
  node's aggregate and two degrees and of the three small weight arrays (each read whole at every point); a row of the
  block depends on that row only, the two matrix products having contractions of 1 and of 32 terms. The 100 blocks tile
  the node column, so the region leaves `GConv.hidden` of the six arrays it read.
-/
import proofs.«138436_j60833916780698_2_alg».proof.Proof.Gen.KernelIdeal.Frame
import proofs.«138436_j60833916780698_2_alg».proof.Proof.LayerSpec
import proofs.«138436_j60833916780698_2_alg».proof.Proof.LibContractPlain
import proofs.«138436_j60833916780698_2_alg».proof.Proof.LibLayout
import Idealize.ShloMosaic.Lib.Pipeline.Value
import Idealize.ShloMosaic.Lib.ValueIdx
import Idealize.ShloMosaic.Lib.ValueLayout

set_option maxRecDepth 16384

noncomputable section

open scoped BigOperators

namespace Cert.KernelIdeal.FusedStage

open Idealize.ShloMosaic Idealize.ShloMosaic.TcCoe Idealize.ShloMosaic.ValueIdx Idealize.SL.Sem
open Idealize.ShloMosaic.Pipeline (Dat)
open Cert.KernelIdeal Cert.KernelIdeal.Gen Cert.GConv

variable (V : (c : Dev nD) → (b : Ref sig .tc) → Buf (Elt Ideal) ((c : Thread nD τ).loc b))

theorem offset_zero : (![0, 0] : Fin 2 → Nat) = fun _ => 0 := funext fun a => by fin_cases a <;> rfl

/-- The first product's dimension numbers are those of a plain 1000 × 1 by 1 × 32 product. -/
theorem dims_first : dot_S1000x1_S1x32_S1000x32_1_0_0_1_n_n
    = Cert.LibContractPlain.plainDims 1000 1 32 dot_S1000x1_S1x32_S1000x32_1_0_0_1_n_n_wf := rfl
/-- The second product's dimension numbers are those of a plain 1000 × 32 by 32 × 1 product. -/
theorem dims_second : dot_S1000x32_S32x1_S1000x1_1_0_0_1_n_n
    = Cert.LibContractPlain.plainDims 1000 32 1 dot_S1000x32_S32x1_S1000x1_1_0_0_1_n_n_wf := rfl

/-- An entry of the 1000 × 1 by 1 × 32 product: one product, the contraction having one term. -/
theorem first_product_entry (L : FVec Ideal S1000x1 .f32) (R : FVec Ideal S1x32 .f32) (p : Fin 1000) (k : Fin 32) :
    matmul (F := Ideal) (Cert.LibContractPlain.plainDims 1000 1 32 dot_S1000x1_S1x32_S1000x32_1_0_0_1_n_n_wf) none
        (truncf .bf16 L bitsLt_bf16_f32) (truncf .bf16 R bitsLt_bf16_f32)
        (constant (F := Ideal) S1000x32 .f32 0x00000000#32) (ix2 p k)
      = L (ix2 p 0) * R (ix2 0 k) :=
  (Cert.LibContractPlain.matmulPlain_zero_apply 1000 1 32 _ none _ _ p k).trans (by rw [Fin.sum_univ_one]; rfl)

/-- An entry of the 1000 × 32 by 32 × 1 product: the sum over the 32 features. -/
theorem second_product_entry (L : FVec Ideal S1000x32 .f32) (R : FVec Ideal S32x1 .f32) (p : Fin 1000) :
    matmul (F := Ideal) (Cert.LibContractPlain.plainDims 1000 32 1 dot_S1000x32_S32x1_S1000x1_1_0_0_1_n_n_wf) none
        (truncf .bf16 L bitsLt_bf16_f32) (truncf .bf16 R bitsLt_bf16_f32)
        (constant (F := Ideal) S1000x1 .f32 0x00000000#32) (ix2 p 0)
      = ∑ k : Fin 32, L (ix2 p k) * R (ix2 k 0) :=
  (Cert.LibContractPlain.matmulPlain_zero_apply 1000 32 1 _ none _ _ p 0).trans rfl

/-- The stored value at a row of the block is `nodeHidden` of that row's three loaded entries and of the three loaded
    weight arrays: the first product has one term per entry, the bias row and the out-degree column are repeated
    along the other axis, and the second product sums over the 32 features. -/
theorem stored_apply (v0 v5 v10 : Vec Ideal S1000x1 .f32) (v13 v17 : Vec Ideal S1x32 .f32) (v25 : Vec Ideal S32x1 .f32)
    (j : S1000x1.Idx) :
    k1_pay1 (F := Ideal) v0 v5 v10 v13 v17 v25 j = nodeHidden (v10 j) (v0 j) (v5 j) v13 v17 v25 := by
  obtain ⟨p, u, rfl⟩ : ∃ (p : Fin 1000) (u : Fin 1), j = ix2 p u := ⟨j 0, j 1, eq_ix2 j⟩
  have hu : u = 0 := Subsingleton.elim _ _
  subst hu
  unfold k1_pay1
  simp only [shapeCast_self, dims_first, dims_second]
  rw [second_product_entry]
  unfold nodeHidden
  refine Finset.sum_congr rfl fun k _ => ?_
  simp only [mulf_apply, maximumf_apply, addf_apply, broadcast_apply]
  rw [first_product_entry, broadcastTo_1b_ab_apply, Cert.Attn.Layout.broadcastTo_a1_ab_apply]
  rfl

/-- The fused stage read at an index, from the three columns read at equal indices and the three weight arrays. -/
theorem hidden_at (A Din Dout : S100000x1.Idx → EReal) (W1 B1 : S1x32.Idx → EReal) (W2 : S32x1.Idx → EReal)
    (w1 b1 : S1x32.Idx → EReal) (w2 : S32x1.Idx → EReal) (i0 i1 i2 i6 : S100000x1.Idx)
    (h0 : i0 = i6) (h1 : i1 = i6) (h2 : i2 = i6) (e3 : w1 = W1) (e4 : b1 = B1) (e5 : w2 = W2) :
    nodeHidden (A i0) (Din i1) (Dout i2) w1 b1 w2 = hidden A Din Dout W1 B1 W2 i6 := by
  subst h0 h1 h2 e3 e4 e5; rfl

/-- Decided over the grid: at point `t` the three node columns and the output sit at block row `t`, block column 0;
    the three weight windows always at their one block. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The first weight window's block at any point is the whole 1 × 32 weight. -/
theorem weight1_block (c : Dev nD) (t : Fin cfg1.N) : iblk1 V c 3 t = V c main_arg3 := by
  obtain ⟨-, -, -, -, -, -, e6, e7, -⟩ := block_index t
  funext y
  show V c main_arg3 (((cfg1.win 3).blk t).view.emb y) = V c main_arg3 y
  refine congrArg (V c main_arg3) ?_
  funext a; apply Fin.ext
  match a with
  | ⟨0, _⟩ => show win1_3.index t (0 : Fin 2) * 1 + 1 * (y 0).val = (y 0).val; omega
  | ⟨1, _⟩ => show win1_3.index t (1 : Fin 2) * 32 + 1 * (y 1).val = (y 1).val; omega

/-- The bias window's block at any point is the whole 1 × 32 bias row. -/
theorem bias_block (c : Dev nD) (t : Fin cfg1.N) : iblk1 V c 4 t = V c main_v20 := by
  obtain ⟨-, -, -, -, -, -, -, -, e8, e9, -⟩ := block_index t
  funext y
  show V c main_v20 (((cfg1.win 4).blk t).view.emb y) = V c main_v20 y
  refine congrArg (V c main_v20) ?_
  funext a; apply Fin.ext
  match a with
  | ⟨0, _⟩ => show win1_4.index t (0 : Fin 2) * 1 + 1 * (y 0).val = (y 0).val; omega
  | ⟨1, _⟩ => show win1_4.index t (1 : Fin 2) * 32 + 1 * (y 1).val = (y 1).val; omega

/-- The second weight window's block at any point is the whole 32 × 1 weight. -/
theorem weight2_block (c : Dev nD) (t : Fin cfg1.N) : iblk1 V c 5 t = V c main_arg5 := by
  obtain ⟨-, -, -, -, -, -, -, -, -, -, e10, e11, -⟩ := block_index t
  funext y
  show V c main_arg5 (((cfg1.win 5).blk t).view.emb y) = V c main_arg5 y
  refine congrArg (V c main_arg5) ?_
  funext a; apply Fin.ext
  match a with
  | ⟨0, _⟩ => show win1_5.index t (0 : Fin 2) * 32 + 1 * (y 0).val = (y 0).val; omega
  | ⟨1, _⟩ => show win1_5.index t (1 : Fin 2) * 1 + 1 * (y 1).val = (y 1).val; omega

/-- What point `t` writes back is block `t` of `hidden` of the region's six input arrays. -/
theorem flushed_eq (c : Dev nD) (t : Fin cfg1.N) :
    (dat1 V c).flushed 6 t
      = ((cfg1.win 6).blk t).view.read (Elt Ideal)
          (hidden (V c main_v19) (V c main_v8) (V c main_v4) (V c main_arg3) (V c main_v20) (V c main_arg5)) := by
  show (cfg1.win 6).cut (grid1.coords t) ((dat1 V c).after 6 t) = _
  rw [after1_6]
  unfold out1_6
  rw [View.canon_unit_zero offset_zero]
  simp only [View.ld_unit_zero (S := S1000x1) offset_zero, View.ld_unit_zero (S := S1x32) offset_zero,
    View.ld_unit_zero (S := S32x1) offset_zero]
  obtain ⟨e0, e1, e2, e3, e4, e5, -, -, -, -, -, -, e12, e13⟩ := block_index t
  funext j
  refine (stored_apply (iblk1 V c 1 t) (iblk1 V c 2 t) (iblk1 V c 0 t) (iblk1 V c 3 t) (iblk1 V c 4 t) (iblk1 V c 5 t) j).trans ?_
  have h0 : ((cfg1.win 0).blk t).view.emb j = ((cfg1.win 6).blk t).view.emb j := by
    funext a; apply Fin.ext
    match a with
    | ⟨0, _⟩ => show win1_0.index t (0 : Fin 2) * 1000 + 1 * (j 0).val = win1_6.index t (0 : Fin 2) * 1000 + 1 * (j 0).val; omega
    | ⟨1, _⟩ => show win1_0.index t (1 : Fin 2) * 1 + 1 * (j 1).val = win1_6.index t (1 : Fin 2) * 1 + 1 * (j 1).val; omega
  have h1 : ((cfg1.win 1).blk t).view.emb j = ((cfg1.win 6).blk t).view.emb j := by
    funext a; apply Fin.ext
    match a with
    | ⟨0, _⟩ => show win1_1.index t (0 : Fin 2) * 1000 + 1 * (j 0).val = win1_6.index t (0 : Fin 2) * 1000 + 1 * (j 0).val; omega
    | ⟨1, _⟩ => show win1_1.index t (1 : Fin 2) * 1 + 1 * (j 1).val = win1_6.index t (1 : Fin 2) * 1 + 1 * (j 1).val; omega
  have h2 : ((cfg1.win 2).blk t).view.emb j = ((cfg1.win 6).blk t).view.emb j := by
    funext a; apply Fin.ext
    match a with
    | ⟨0, _⟩ => show win1_2.index t (0 : Fin 2) * 1000 + 1 * (j 0).val = win1_6.index t (0 : Fin 2) * 1000 + 1 * (j 0).val; omega
    | ⟨1, _⟩ => show win1_2.index t (1 : Fin 2) * 1 + 1 * (j 1).val = win1_6.index t (1 : Fin 2) * 1 + 1 * (j 1).val; omega
  exact hidden_at (V c main_v19) (V c main_v8) (V c main_v4) (V c main_arg3) (V c main_v20) (V c main_arg5)
    (iblk1 V c 3 t) (iblk1 V c 4 t) (iblk1 V c 5 t)
    (((cfg1.win 0).blk t).view.emb j) (((cfg1.win 1).blk t).view.emb j) (((cfg1.win 2).blk t).view.emb j)
    (((cfg1.win 6).blk t).view.emb j) h0 h1 h2 (weight1_block V c t) (bias_block V c t) (weight2_block V c t)

/-- A node is in point `t`'s block iff each coordinate is in the block's range on its axis. -/
theorem mem_blk (t : Fin cfg1.N) (i : S100000x1.Idx) :
    i ∈ ((cfg1.win 6).blk t).view.set ↔ ∀ a : Fin 2, win1_6.index t a * S1000x1.size a ≤ (i a).val
      ∧ (i a).val < win1_6.index t a * S1000x1.size a + S1000x1.size a := by
  show i ∈ ((View.whole main_v21).slice (win1_6.rect t)).set ↔ _
  rw [View.set_slice_whole, Rect.mem_set_unit]
  exact Iff.rfl

/-- Node `n` is in the block of point `n / 1000`: the 100 blocks tile the column. -/
theorem covered (i : S100000x1.Idx) :
    ∃ t : Fin cfg1.N, (cfg1.win 6).flush t = true ∧ i ∈ ((cfg1.win 6).blk t).view.set := by
  have hi0 : (i 0).val < 100000 := (i 0).isLt
  have hi1 : (i 1).val < 1 := (i 1).isLt
  have ht : (i 0).val / 1000 < cfg1.N := by show (i 0).val / 1000 < grid1.N; rw [N_1]; omega
  refine ⟨⟨(i 0).val / 1000, ht⟩, flush1_6 _, ?_⟩
  obtain ⟨-, -, -, -, -, -, -, -, -, -, -, -, e12, e13⟩ := block_index ⟨(i 0).val / 1000, ht⟩
  rw [mem_blk]
  intro a
  match a with
  | ⟨0, _⟩ =>
    show win1_6.index ⟨(i 0).val / 1000, ht⟩ (0 : Fin 2) * 1000 ≤ (i 0).val
      ∧ (i 0).val < win1_6.index ⟨(i 0).val / 1000, ht⟩ (0 : Fin 2) * 1000 + 1000
    rw [e12]; show (i 0).val / 1000 * 1000 ≤ (i 0).val ∧ (i 0).val < (i 0).val / 1000 * 1000 + 1000; omega
  | ⟨1, _⟩ =>
    show win1_6.index ⟨(i 0).val / 1000, ht⟩ (1 : Fin 2) * 1 ≤ (i 1).val
      ∧ (i 1).val < win1_6.index ⟨(i 0).val / 1000, ht⟩ (1 : Fin 2) * 1 + 1
    rw [e13]; omega

/-- The region's output column after its 100 points: `hidden` of the six arrays as the region found them. -/
theorem final (c : Dev nD) :
    (dat1 V c).arrAt 6 cfg1.N
      = hidden (V c main_v19) (V c main_v8) (V c main_v4) (V c main_arg3) (V c main_v20) (V c main_arg5) :=
  (dat1 V c).arrAt_eq_of_cover 6 _ (fun t _ => flushed_eq V c t) covered

end Cert.KernelIdeal.FusedStage

end
-- ==== Proof.OutputStage.lean ====
/-
  The third kernel region: every block of 1000 nodes is written with `aggregate · invRoot(in-degree) + bias` of the same
  1000 nodes (the bias a single number, read whole at every point), and the 100 blocks tile the node column, so the
  region leaves `GConv.output` of the three arrays it read.
-/
import proofs.«138436_j60833916780698_2_alg».proof.Proof.Gen.KernelIdeal.Frame
import proofs.«138436_j60833916780698_2_alg».proof.Proof.LayerSpec
import Idealize.ShloMosaic.Lib.Pipeline.Value
import Idealize.ShloMosaic.Lib.ValueIdx
import Idealize.ShloMosaic.Lib.ValueLayout

set_option maxRecDepth 16384

noncomputable section

namespace Cert.KernelIdeal.OutputStage

open Idealize.ShloMosaic Idealize.ShloMosaic.TcCoe Idealize.ShloMosaic.ValueIdx Idealize.SL.Sem
open Idealize.ShloMosaic.Pipeline (Dat)
open Cert.KernelIdeal Cert.KernelIdeal.Gen Cert.GConv

variable (V : (c : Dev nD) → (b : Ref sig .tc) → Buf (Elt Ideal) ((c : Thread nD τ).loc b))

theorem offset_zero : (![0, 0] : Fin 2 → Nat) = fun _ => 0 := funext fun a => by fin_cases a <;> rfl

/-- The stored value at a row of the block: the loaded aggregate times the inverse root of the loaded degree, plus
    the one bias entry. -/
theorem stored_apply (v0 v5 : Vec Ideal S1000x1 .f32) (v8 : Vec Ideal S1x1 .f32) (j : S1000x1.Idx) :
    k2_pay1 (F := Ideal) v0 v5 v8 j = v5 j * invRoot (v0 j) + v8 (ix2 0 0) := by
  obtain ⟨p, u, rfl⟩ : ∃ (p : Fin 1000) (u : Fin 1), j = ix2 p u := ⟨j 0, j 1, eq_ix2 j⟩
  have hu : u = 0 := Subsingleton.elim _ _
  subst hu
  unfold k2_pay1
  simp only [shapeCast_self]
  show v5 (ix2 p 0) * invRoot (v0 (ix2 p 0)) + broadcastTo S1000x1 v8 broadcasts_S1x1_S1000x1 (ix2 p 0) = _
  rw [broadcastTo_1b_ab_apply]

/-- The output stage read at an index, from the two columns read at equal indices and the bias entry. -/
theorem output_at (A D : S100000x1.Idx → EReal) (B b : S1x1.Idx → EReal) (i0 i1 i3 : S100000x1.Idx)
    (h0 : i0 = i3) (h1 : i1 = i3) (hb : b = B) :
    A i0 * invRoot (D i1) + b (ix2 0 0) = output A D B i3 := by
  subst h0 h1 hb; rfl

/-- Decided over the grid: at point `t` the two node columns and the output sit at block row `t`, block column 0;
    the bias window always at its one block. -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The bias window's block at any point is the whole bias array. -/
theorem bias_block (c : Dev nD) (t : Fin cfg2.N) : iblk2 V c 2 t = V c main_v32 := by
  obtain ⟨-, -, -, -, e4, e5, -, -⟩ := block_index t
  funext y
  show V c main_v32 (((cfg2.win 2).blk t).view.emb y) = V c main_v32 y
  refine congrArg (V c main_v32) ?_
  funext a; apply Fin.ext
  match a with
  | ⟨0, _⟩ => show win2_2.index t (0 : Fin 2) * 1 + 1 * (y 0).val = (y 0).val; omega
  | ⟨1, _⟩ => show win2_2.index t (1 : Fin 2) * 1 + 1 * (y 1).val = (y 1).val; omega

/-- What point `t` writes back is block `t` of `output` of the region's three input arrays. -/
theorem flushed_eq (c : Dev nD) (t : Fin cfg2.N) :
    (dat2 V c).flushed 3 t
      = ((cfg2.win 3).blk t).view.read (Elt Ideal) (output (V c main_v31) (V c main_v8) (V c main_v32)) := by
  show (cfg2.win 3).cut (grid2.coords t) ((dat2 V c).after 3 t) = _
  rw [after2_3]
  unfold out2_3
  rw [View.canon_unit_zero offset_zero]
  simp only [View.ld_unit_zero (S := S1000x1) offset_zero, View.ld_unit_zero (S := S1x1) offset_zero]
  obtain ⟨e0, e1, e2, e3, -, -, e6, e7⟩ := block_index t
  funext j
  refine (stored_apply (iblk2 V c 1 t) (iblk2 V c 0 t) (iblk2 V c 2 t) j).trans ?_
  have h0 : ((cfg2.win 0).blk t).view.emb j = ((cfg2.win 3).blk t).view.emb j := by
    funext a; apply Fin.ext
    match a with
    | ⟨0, _⟩ => show win2_0.index t (0 : Fin 2) * 1000 + 1 * (j 0).val = win2_3.index t (0 : Fin 2) * 1000 + 1 * (j 0).val; omega
    | ⟨1, _⟩ => show win2_0.index t (1 : Fin 2) * 1 + 1 * (j 1).val = win2_3.index t (1 : Fin 2) * 1 + 1 * (j 1).val; omega
  have h1 : ((cfg2.win 1).blk t).view.emb j = ((cfg2.win 3).blk t).view.emb j := by
    funext a; apply Fin.ext
    match a with
    | ⟨0, _⟩ => show win2_1.index t (0 : Fin 2) * 1000 + 1 * (j 0).val = win2_3.index t (0 : Fin 2) * 1000 + 1 * (j 0).val; omega
    | ⟨1, _⟩ => show win2_1.index t (1 : Fin 2) * 1 + 1 * (j 1).val = win2_3.index t (1 : Fin 2) * 1 + 1 * (j 1).val; omega
  exact output_at (V c main_v31) (V c main_v8) (V c main_v32) (iblk2 V c 2 t) (((cfg2.win 0).blk t).view.emb j)
    (((cfg2.win 1).blk t).view.emb j) (((cfg2.win 3).blk t).view.emb j) h0 h1 (bias_block V c t)

/-- A node is in point `t`'s block iff each coordinate is in the block's range on its axis. -/
theorem mem_blk (t : Fin cfg2.N) (i : S100000x1.Idx) :
    i ∈ ((cfg2.win 3).blk t).view.set ↔ ∀ a : Fin 2, win2_3.index t a * S1000x1.size a ≤ (i a).val
      ∧ (i a).val < win2_3.index t a * S1000x1.size a + S1000x1.size a := by
  show i ∈ ((View.whole main_v33).slice (win2_3.rect t)).set ↔ _
  rw [View.set_slice_whole, Rect.mem_set_unit]
  exact Iff.rfl

/-- Node `n` is in the block of point `n / 1000`: the 100 blocks tile the column. -/
theorem covered (i : S100000x1.Idx) :
    ∃ t : Fin cfg2.N, (cfg2.win 3).flush t = true ∧ i ∈ ((cfg2.win 3).blk t).view.set := by
  have hi0 : (i 0).val < 100000 := (i 0).isLt
  have hi1 : (i 1).val < 1 := (i 1).isLt
  have ht : (i 0).val / 1000 < cfg2.N := by show (i 0).val / 1000 < grid2.N; rw [N_2]; omega
  refine ⟨⟨(i 0).val / 1000, ht⟩, flush2_3 _, ?_⟩
  obtain ⟨-, -, -, -, -, -, e6, e7⟩ := block_index ⟨(i 0).val / 1000, ht⟩
  rw [mem_blk]
  intro a
  match a with
  | ⟨0, _⟩ =>
    show win2_3.index ⟨(i 0).val / 1000, ht⟩ (0 : Fin 2) * 1000 ≤ (i 0).val
      ∧ (i 0).val < win2_3.index ⟨(i 0).val / 1000, ht⟩ (0 : Fin 2) * 1000 + 1000
    rw [e6]; show (i 0).val / 1000 * 1000 ≤ (i 0).val ∧ (i 0).val < (i 0).val / 1000 * 1000 + 1000; omega
  | ⟨1, _⟩ =>
    show win2_3.index ⟨(i 0).val / 1000, ht⟩ (1 : Fin 2) * 1 ≤ (i 1).val
      ∧ (i 1).val < win2_3.index ⟨(i 0).val / 1000, ht⟩ (1 : Fin 2) * 1 + 1
    rw [e7]; omega

/-- The region's output column after its 100 points: `output` of the three arrays as the region found them. -/
theorem final (c : Dev nD) :
    (dat2 V c).arrAt 3 cfg2.N = output (V c main_v31) (V c main_v8) (V c main_v32) :=
  (dat2 V c).arrAt_eq_of_cover 3 _ (fun t _ => flushed_eq V c t) covered

end Cert.KernelIdeal.OutputStage

end
-- ==== Proof.Boundaries.lean ====
/-
  What the kernel program's buffers hold at each boundary between its host stretches and kernel regions, as functions
  of the seven argument arrays, down to the result.

  `degVec e` counts, for every node, the edges whose end `e` is that node (a scatter-add of ones); `degCol` is the same
  as a column. `aggregate src dst h` sends each node's value `h` along every edge from `src` to `dst` and adds what
  arrives at each node (a gather, then a scatter-add into zeros); negative node numbers in `src` count from the end.
  With these, the result buffer ends at
    output (aggregate (hidden (aggregate (scaledInput x degOut)) degIn degOut W1 b1 W2)) degIn b2
  where the two degree columns come from `src` and `dst`.
-/
import proofs.«138436_j60833916780698_2_alg».proof.Proof.Gen.KernelIdeal.Frame
import proofs.«138436_j60833916780698_2_alg».proof.Proof.LayerSpec
import proofs.«138436_j60833916780698_2_alg».proof.Proof.InputScaling
import proofs.«138436_j60833916780698_2_alg».proof.Proof.FusedStage
import proofs.«138436_j60833916780698_2_alg».proof.Proof.OutputStage
import Idealize.ShloMosaic.Lib.StableHlo.Run

set_option maxRecDepth 16384

noncomputable section

namespace Cert.KernelIdeal.Boundaries

open Idealize.ShloMosaic Idealize.ShloMosaic.TcCoe Idealize.ShloMosaic.StableHlo Idealize.SL.Sem
open Idealize.ShloMosaic.Pipeline (Dat)
open Cert.KernelIdeal Cert.KernelIdeal.Gen Cert.GConv

/-- Every node's count of the edges ending (by the list `e`) at it. -/
def degVec (e : (⟨S1600000, .i32⟩ : BufTy).Contents (Elt Ideal)) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 e)
    (broadcastInDim S1600000 ![] bcast_S_S1600000 (constant (F := Ideal) S_ .f32 0x3F800000#32))

/-- The degree count as a column. -/
def degCol (e : (⟨S1600000, .i32⟩ : BufTy).Contents (Elt Ideal)) : (⟨S100000x1, .f32⟩ : BufTy).Contents (Elt Ideal) :=
  shapeCast S100000x1 (degVec e) shapeCasts_S100000_S100000x1

/-- Each node's value sent along every edge and summed at the edge's target. -/
def aggregate (src dst : (⟨S1600000, .i32⟩ : BufTy).Contents (Elt Ideal))
    (h : (⟨S100000x1, .f32⟩ : BufTy).Contents (Elt Ideal)) : (⟨S100000x1, .f32⟩ : BufTy).Contents (Elt Ideal) :=
  Host.scatterAdd (F := Ideal) scatter_S100000x1_S1600000x1_S1600000x1_1_0_0_1
    (broadcastInDim S100000x1 ![] bcast_S_S100000x1 (constant (F := Ideal) S_ .f32 0x00000000#32))
    (broadcastInDim S1600000x1 ![0] bcast_S1600000_S1600000x1_0 dst)
    (Host.gather gather_S100000x1_S1600000x1_S1600000x1_1_0_n_n_0_1_11 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

variable (m : (ℓ : Loc nD τ sig) → Buf (Elt Ideal) ℓ) (ρ : Dev nD → PrngReg) (c : Dev nD)

/-! ## After the first host stretch -/

theorem W1_arg0 : W1 m ρ c (Proc.devRef .tc main_arg0) = m ((c : Thread nD τ).loc main_arg0) := by
  show StableHlo.after hostOps0 (W0 m ρ c) (Proc.devRef .tc main_arg0) = _
  after_results <;> rfl
theorem W1_arg1 : W1 m ρ c (Proc.devRef .tc main_arg1) = m ((c : Thread nD τ).loc main_arg1) := by
  show StableHlo.after hostOps0 (W0 m ρ c) (Proc.devRef .tc main_arg1) = _
  after_results <;> rfl
theorem W1_arg2 : W1 m ρ c (Proc.devRef .tc main_arg2) = m ((c : Thread nD τ).loc main_arg2) := by
  show StableHlo.after hostOps0 (W0 m ρ c) (Proc.devRef .tc main_arg2) = _
  after_results <;> rfl
theorem W1_arg3 : W1 m ρ c (Proc.devRef .tc main_arg3) = m ((c : Thread nD τ).loc main_arg3) := by
  show StableHlo.after hostOps0 (W0 m ρ c) (Proc.devRef .tc main_arg3) = _
  after_results <;> rfl
theorem W1_arg4 : W1 m ρ c (Proc.devRef .tc main_arg4) = m ((c : Thread nD τ).loc main_arg4) := by
  show StableHlo.after hostOps0 (W0 m ρ c) (Proc.devRef .tc main_arg4) = _
  after_results <;> rfl
theorem W1_arg5 : W1 m ρ c (Proc.devRef .tc main_arg5) = m ((c : Thread nD τ).loc main_arg5) := by
  show StableHlo.after hostOps0 (W0 m ρ c) (Proc.devRef .tc main_arg5) = _
  after_results <;> rfl
theorem W1_arg6 : W1 m ρ c (Proc.devRef .tc main_arg6) = m ((c : Thread nD τ).loc main_arg6) := by
  show StableHlo.after hostOps0 (W0 m ρ c) (Proc.devRef .tc main_arg6) = _
  after_results <;> rfl

/-- The out-degree column, from the edges' sources. -/
theorem W1_v4 : W1 m ρ c (Proc.devRef .tc main_v4) = degCol (m ((c : Thread nD τ).loc main_arg1)) := by
  show StableHlo.after hostOps0 (W0 m ρ c) (Proc.devRef .tc main_v4) = _
  after_results <;> rfl
/-- The in-degree column, from the edges' targets. -/
theorem W1_v8 : W1 m ρ c (Proc.devRef .tc main_v8) = degCol (m ((c : Thread nD τ).loc main_arg2)) := by
  show StableHlo.after hostOps0 (W0 m ρ c) (Proc.devRef .tc main_v8) = _
  after_results <;> rfl

/-! ## After the first region -/

/-- The first region's output column. -/
theorem W2_v9 : W2 m ρ c (Proc.devRef .tc main_v9)
    = scaledInput (m ((c : Thread nD τ).loc main_arg0)) (degCol (m ((c : Thread nD τ).loc main_arg1))) :=
  ((W2_arr m ρ c 2).trans (InputScaling.final (V1 m ρ) c)).trans
    (congrArg₂ scaledInput (W1_arg0 m ρ c) (W1_v4 m ρ c))

/-- The out-degree column is an input of the first region: it leaves it as it entered. -/
theorem W2_v4 : W2 m ρ c (Proc.devRef .tc main_v4) = degCol (m ((c : Thread nD τ).loc main_arg1)) :=
  ((W2_arr m ρ c 1).trans (((dat0 (V1 m ρ) c).arrAt_in 1 rfl _).trans (A_eq0 (V1 m ρ) c 1))).trans (W1_v4 m ρ c)
theorem W2_v8 : W2 m ρ c (Proc.devRef .tc main_v8) = degCol (m ((c : Thread nD τ).loc main_arg2)) :=
  (W2_of_ne m ρ c main_v8 (by decide)).trans (W1_v8 m ρ c)
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)

/-! ## After the second host stretch -/

/-- The first aggregation: the scaled input sent along the edges and summed at their targets. -/
theorem W3_v19 : W3 m ρ c (Proc.devRef .tc main_v19)
    = aggregate (m ((c : Thread nD τ).loc main_arg1)) (m ((c : Thread nD τ).loc main_arg2))
        (scaledInput (m ((c : Thread nD τ).loc main_arg0)) (degCol (m ((c : Thread nD τ).loc main_arg1)))) := by
  show StableHlo.after hostOps1 (W2 m ρ c) (Proc.devRef .tc main_v19) = _
  after_results_simp
  rw [W2_arg1 m ρ c, W2_arg2 m ρ c, W2_v9 m ρ c]
  rfl
/-- The first layer's bias as a 1 × 32 row. -/
theorem W3_v20 : W3 m ρ c (Proc.devRef .tc main_v20)
    = shapeCast S1x32 (m ((c : Thread nD τ).loc main_arg4)) shapeCasts_S32_S1x32 := by
  show StableHlo.after hostOps1 (W2 m ρ c) (Proc.devRef .tc main_v20) = _
  after_results
  rw [W2_arg4 m ρ c]
  rfl
theorem W3_v4 : W3 m ρ c (Proc.devRef .tc main_v4) = degCol (m ((c : Thread nD τ).loc main_arg1)) :=
  (show StableHlo.after hostOps1 (W2 m ρ c) (Proc.devRef .tc main_v4) = W2 m ρ c (Proc.devRef .tc main_v4) by
    after_results).trans (W2_v4 m ρ c)
theorem W3_v8 : W3 m ρ c (Proc.devRef .tc main_v8) = degCol (m ((c : Thread nD τ).loc main_arg2)) :=
  (show StableHlo.after hostOps1 (W2 m ρ c) (Proc.devRef .tc main_v8) = W2 m ρ c (Proc.devRef .tc main_v8) by
    after_results).trans (W2_v8 m ρ c)
theorem W3_arg1 : W3 m ρ c (Proc.devRef .tc main_arg1) = m ((c : Thread nD τ).loc main_arg1) :=
  (show StableHlo.after hostOps1 (W2 m ρ c) (Proc.devRef .tc main_arg1) = W2 m ρ c (Proc.devRef .tc main_arg1) by
    after_results).trans (W2_arg1 m ρ c)
theorem W3_arg2 : W3 m ρ c (Proc.devRef .tc main_arg2) = m ((c : Thread nD τ).loc main_arg2) :=
  (show StableHlo.after hostOps1 (W2 m ρ c) (Proc.devRef .tc main_arg2) = W2 m ρ c (Proc.devRef .tc main_arg2) by
    after_results).trans (W2_arg2 m ρ c)
theorem W3_arg3 : W3 m ρ c (Proc.devRef .tc main_arg3) = m ((c : Thread nD τ).loc main_arg3) :=
  (show StableHlo.after hostOps1 (W2 m ρ c) (Proc.devRef .tc main_arg3) = W2 m ρ c (Proc.devRef .tc main_arg3) by
    after_results).trans (W2_arg3 m ρ c)
theorem W3_arg5 : W3 m ρ c (Proc.devRef .tc main_arg5) = m ((c : Thread nD τ).loc main_arg5) :=
  (show StableHlo.after hostOps1 (W2 m ρ c) (Proc.devRef .tc main_arg5) = W2 m ρ c (Proc.devRef .tc main_arg5) by
    after_results).trans (W2_arg5 m ρ c)
theorem W3_arg6 : W3 m ρ c (Proc.devRef .tc main_arg6) = m ((c : Thread nD τ).loc main_arg6) :=
  (show StableHlo.after hostOps1 (W2 m ρ c) (Proc.devRef .tc main_arg6) = W2 m ρ c (Proc.devRef .tc main_arg6) by
    after_results).trans (W2_arg6 m ρ c)

/-! ## After the second region -/

/-- The second region's output column. -/
theorem W4_v21 : W4 m ρ c (Proc.devRef .tc main_v21)
    = hidden (aggregate (m ((c : Thread nD τ).loc main_arg1)) (m ((c : Thread nD τ).loc main_arg2))
          (scaledInput (m ((c : Thread nD τ).loc main_arg0)) (degCol (m ((c : Thread nD τ).loc main_arg1)))))
        (degCol (m ((c : Thread nD τ).loc main_arg2))) (degCol (m ((c : Thread nD τ).loc main_arg1)))
        (m ((c : Thread nD τ).loc main_arg3)) (shapeCast S1x32 (m ((c : Thread nD τ).loc main_arg4)) shapeCasts_S32_S1x32)
        (m ((c : Thread nD τ).loc main_arg5)) := by
  refine ((W4_arr m ρ c 6).trans (FusedStage.final (V3 m ρ) c)).trans ?_
  show hidden (W3 m ρ c (Proc.devRef .tc main_v19)) (W3 m ρ c (Proc.devRef .tc main_v8)) (W3 m ρ c (Proc.devRef .tc main_v4))
    (W3 m ρ c (Proc.devRef .tc main_arg3)) (W3 m ρ c (Proc.devRef .tc main_v20)) (W3 m ρ c (Proc.devRef .tc main_arg5)) = _
  rw [W3_v19 m ρ c, W3_v8 m ρ c, W3_v4 m ρ c, W3_arg3 m ρ c, W3_v20 m ρ c, W3_arg5 m ρ c]

/-- The in-degree column is an input of the second region: it leaves it as it entered. -/
theorem W4_v8 : W4 m ρ c (Proc.devRef .tc main_v8) = degCol (m ((c : Thread nD τ).loc main_arg2)) :=
  ((W4_arr m ρ c 1).trans (((dat1 (V3 m ρ) c).arrAt_in 1 rfl _).trans (A_eq1 (V3 m ρ) c 1))).trans (W3_v8 m ρ c)
theorem W4_arg1 : W4 m ρ c (Proc.devRef .tc main_arg1) = m ((c : Thread nD τ).loc main_arg1) :=
  (W4_of_ne m ρ c main_arg1 (by decide)).trans (W3_arg1 m ρ c)
theorem W4_arg2 : W4 m ρ c (Proc.devRef .tc main_arg2) = m ((c : Thread nD τ).loc main_arg2) :=
  (W4_of_ne m ρ c main_arg2 (by decide)).trans (W3_arg2 m ρ c)
theorem W4_arg6 : W4 m ρ c (Proc.devRef .tc main_arg6) = m ((c : Thread nD τ).loc main_arg6) :=
  (W4_of_ne m ρ c main_arg6 (by decide)).trans (W3_arg6 m ρ c)

/-! ## After the third host stretch, and the result -/

/-- The program's result as one function of the seven argument arrays. -/
def result (x : (⟨S100000x1, .f32⟩ : BufTy).Contents (Elt Ideal)) (src dst : (⟨S1600000, .i32⟩ : BufTy).Contents (Elt Ideal))
    (w1 : (⟨S1x32, .f32⟩ : BufTy).Contents (Elt Ideal)) (b1 : (⟨S32, .f32⟩ : BufTy).Contents (Elt Ideal))
    (w2 : (⟨S32x1, .f32⟩ : BufTy).Contents (Elt Ideal)) (b2 : (⟨S1, .f32⟩ : BufTy).Contents (Elt Ideal)) :
    (⟨S100000x1, .f32⟩ : BufTy).Contents (Elt Ideal) :=
  output (aggregate src dst
      (hidden (aggregate src dst (scaledInput x (degCol src))) (degCol dst) (degCol src) w1
        (shapeCast S1x32 b1 shapeCasts_S32_S1x32) w2))
    (degCol dst) (shapeCast S1x1 b2 shapeCasts_S1_S1x1)

/-- The second aggregation: the fused stage's column sent along the edges and summed at their targets. -/
theorem W5_v31 : W5 m ρ c (Proc.devRef .tc main_v31)
    = aggregate (m ((c : Thread nD τ).loc main_arg1)) (m ((c : Thread nD τ).loc main_arg2))
        (W4 m ρ c (Proc.devRef .tc main_v21)) := by
  show StableHlo.after hostOps2 (W4 m ρ c) (Proc.devRef .tc main_v31) = _
  after_results_simp
  rw [W4_arg1 m ρ c, W4_arg2 m ρ c]
  rfl
/-- The second layer's bias as a 1 × 1 array. -/
theorem W5_v32 : W5 m ρ c (Proc.devRef .tc main_v32)
    = shapeCast S1x1 (m ((c : Thread nD τ).loc main_arg6)) shapeCasts_S1_S1x1 := by
  show StableHlo.after hostOps2 (W4 m ρ c) (Proc.devRef .tc main_v32) = _
  after_results
  rw [W4_arg6 m ρ c]
  rfl
theorem W5_v8 : W5 m ρ c (Proc.devRef .tc main_v8) = degCol (m ((c : Thread nD τ).loc main_arg2)) :=
  (show StableHlo.after hostOps2 (W4 m ρ c) (Proc.devRef .tc main_v8) = W4 m ρ c (Proc.devRef .tc main_v8) by
    after_results).trans (W4_v8 m ρ c)

/-- THE RESULT BUFFER at the last boundary is `result` of the argument arrays as launched. -/
theorem W6_result : W6 m ρ c (Proc.devRef .tc main_v33)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine ((W6_arr m ρ c 3).trans (OutputStage.final (V5 m ρ) c)).trans ?_
  show output (W5 m ρ c (Proc.devRef .tc main_v31)) (W5 m ρ c (Proc.devRef .tc main_v8)) (W5 m ρ c (Proc.devRef .tc main_v32)) = _
  rw [W5_v31 m ρ c, W5_v8 m ρ c, W5_v32 m ρ c, W4_v21 m ρ c]
  rfl

end Cert.KernelIdeal.Boundaries

end
-- ==== Proof.ReferenceStages.lean ====
/-
  The reference program's result, stage by stage, is the same function `result` of the seven argument arrays that the
  kernel program's result buffer ends at.

  The reference counts the two degrees twice (once per layer): all four counts are the two degree vectors, and its four
  inverse-root vectors are `invRoot` of them, node by node. Its first layer's input is `scaledInput`; both of its
  aggregations are `aggregate` (the same gather and scatter-add as the kernel program's, applied to equal columns); its
  last stage is `output`. Only in the middle do the two programs arrange a product differently: at node `n` and feature
  `k` the reference forms `(a n · w1 k) · invRoot (din n)` where the kernel forms `(a n · invRoot (din n)) · w1 k`,
  equal because multiplication of extended reals is commutative and associative; the product over a contraction of one
  term is that term.
-/
import proofs.«138436_j60833916780698_2_alg».proof.Proof.Gen.ReferenceIdeal.Read
import proofs.«138436_j60833916780698_2_alg».proof.Proof.LayerSpec
import proofs.«138436_j60833916780698_2_alg».proof.Proof.Boundaries
import proofs.«138436_j60833916780698_2_alg».proof.Proof.LibLayout
import Idealize.ShloMosaic.Lib.ValueIdx
import Idealize.ShloMosaic.Lib.ValueLayout

set_option maxRecDepth 16384

noncomputable section

open scoped BigOperators

namespace Cert.ReferenceIdeal.Stages

open Idealize.ShloMosaic Idealize.ShloMosaic.TcCoe Idealize.ShloMosaic.ValueIdx Idealize.SL.Sem
open Cert.ReferenceIdeal Cert.ReferenceIdeal.Read Cert.GConv
open Cert.KernelIdeal.Boundaries (degVec degCol aggregate result)

variable (a0 : (⟨S100000x1, .f32⟩ : BufTy).Contents (Elt Ideal)) (a1 a2 : (⟨S1600000, .i32⟩ : BufTy).Contents (Elt Ideal))
  (a3 : (⟨S1x32, .f32⟩ : BufTy).Contents (Elt Ideal)) (a4 : (⟨S32, .f32⟩ : BufTy).Contents (Elt Ideal))
  (a5 : (⟨S32x1, .f32⟩ : BufTy).Contents (Elt Ideal)) (a6 : (⟨S1, .f32⟩ : BufTy).Contents (Elt Ideal))

/-! ## The two programs' gather and scatter-add are the same operations -/

theorem count_dims : Cert.ReferenceIdeal.scatter_S100000_S1600000x1_S1600000_n_0_0_1
    = Cert.KernelIdeal.scatter_S100000_S1600000x1_S1600000_n_0_0_1 := rfl
theorem scatter_dims : Cert.ReferenceIdeal.scatter_S100000x1_S1600000x1_S1600000x1_1_0_0_1
    = Cert.KernelIdeal.scatter_S100000x1_S1600000x1_S1600000x1_1_0_0_1 := rfl
theorem gather_dims : Cert.ReferenceIdeal.gather_S100000x1_S1600000x1_S1600000x1_1_0_n_n_0_1_11
    = Cert.KernelIdeal.gather_S100000x1_S1600000x1_S1600000x1_1_0_n_n_0_1_11 := rfl

/-! ## Degrees and their inverse roots -/

theorem deg_first_out : val_main_v3 (F := Ideal) a1 = degVec a1 := by
  unfold val_main_v3 val_main_v1 val_main_v2 val_main_v0 val_main_cst val_main_cst_0 degVec
  rw [count_dims]
theorem deg_first_in : val_main_v6 (F := Ideal) a2 = degVec a2 := by
  unfold val_main_v6 val_main_v4 val_main_v5 val_main_v0 val_main_cst val_main_cst_1 degVec
  rw [count_dims]
theorem deg_second_out : val_main_v36 (F := Ideal) a1 = degVec a1 := by
  unfold val_main_v36 val_main_v34 val_main_v35 val_main_v33 val_main_cst_6 val_main_cst_7 degVec
  rw [count_dims]
theorem deg_second_in : val_main_v39 (F := Ideal) a2 = degVec a2 := by
  unfold val_main_v39 val_main_v37 val_main_v38 val_main_v33 val_main_cst_6 val_main_cst_8 degVec
  rw [count_dims]

theorem inv_first_out (n : S100000.Idx) : val_main_v9 (F := Ideal) a1 n = invRoot (degVec a1 n) := by
  rw [val_main_v9_apply, val_main_v8_apply, val_main_v7_apply, val_main_cst_2_apply, deg_first_out]
  generalize degVec a1 n = d
  rfl
theorem inv_first_in (n : S100000.Idx) : val_main_v12 (F := Ideal) a2 n = invRoot (degVec a2 n) := by
  rw [val_main_v12_apply, val_main_v11_apply, val_main_v10_apply, val_main_cst_3_apply, deg_first_in]
  generalize degVec a2 n = d
  rfl
theorem inv_second_out (n : S100000.Idx) : val_main_v42 (F := Ideal) a1 n = invRoot (degVec a1 n) := by
  rw [val_main_v42_apply, val_main_v41_apply, val_main_v40_apply, val_main_cst_9_apply, deg_second_out]
  generalize degVec a1 n = d
  rfl
theorem inv_second_in (n : S100000.Idx) : val_main_v45 (F := Ideal) a2 n = invRoot (degVec a2 n) := by
  rw [val_main_v45_apply, val_main_v44_apply, val_main_v43_apply, val_main_cst_10_apply, deg_second_in]
  generalize degVec a2 n = d
  rfl

/-- The degree column at a node is the degree vector at that node. -/
theorem degCol_apply (e : (⟨S1600000, .i32⟩ : BufTy).Contents (Elt Ideal)) (p : Fin 100000) (u : Fin 1) :
    degCol e (ix2 p u) = degVec e (ix1 p) := by
  unfold degCol
  exact Cert.Attn.Layout.shapeCast_a_a1_apply _ _ p u

/-! ## The first layer's input -/

theorem scaled_eq : val_main_v14 (F := Ideal) a0 a1 = scaledInput a0 (degCol a1) := by
  funext i
  obtain ⟨p, u, rfl⟩ : ∃ (p : Fin 100000) (u : Fin 1), i = ix2 p u := ⟨i 0, i 1, eq_ix2 i⟩
  have hi : idx_main_v13 (ix2 p u) = ix1 p := funext fun a => by match a with | ⟨0, _⟩ => rfl
  rw [val_main_v14_apply, val_main_v13_apply, hi, inv_first_out]
  unfold scaledInput
  rw [degCol_apply]
  rfl

/-! ## The two aggregations -/

theorem first_aggregate_eq : val_main_v24 (F := Ideal) a0 a1 a2 = aggregate a1 a2 (val_main_v14 (F := Ideal) a0 a1) := by
  unfold val_main_v24 val_main_v22 val_main_v23 val_main_v21 val_main_v20 val_main_v19 val_main_v18 val_main_v17
    val_main_v16 val_main_v15 val_main_c val_main_c_4 val_main_cst_5 aggregate
  rw [scatter_dims, gather_dims]

theorem second_aggregate_eq : val_main_v59 (F := Ideal) a0 a1 a2 a3 a4 a5
    = aggregate a1 a2 (val_main_v49 (F := Ideal) a0 a1 a2 a3 a4 a5) := by
  unfold val_main_v59 val_main_v57 val_main_v58 val_main_v56 val_main_v55 val_main_v54 val_main_v53 val_main_v52
    val_main_v51 val_main_v50 val_main_c_11 val_main_c_12 val_main_cst_13 aggregate
  rw [scatter_dims, gather_dims]

/-! ## The middle: the first layer's features, rectified, scaled, contracted with the second weight -/

/-- One node and one feature: the two arrangements of the triple product agree. -/
theorem feature_eq (A W ND B Z NS W2 : EReal) :
    max (A * W * ND + B) Z * NS * W2 = max (A * ND * W + B) Z * NS * W2 := by
  rw [mul_right_comm A W ND]

theorem hidden_eq : val_main_v49 (F := Ideal) a0 a1 a2 a3 a4 a5
    = Cert.GConv.hidden (val_main_v24 (F := Ideal) a0 a1 a2) (degCol a2) (degCol a1) a3
        (shapeCast Cert.KernelIdeal.S1x32 a4 Cert.KernelIdeal.Gen.shapeCasts_S32_S1x32) a5 := by
  funext i
  obtain ⟨p, u, rfl⟩ : ∃ (p : Fin 100000) (u : Fin 1), i = ix2 p u := ⟨i 0, i 1, eq_ix2 i⟩
  have hu : u = 0 := Subsingleton.elim _ _
  subst hu
  rw [val_main_v49_apply]
  unfold Cert.GConv.hidden nodeHidden
  refine Finset.sum_congr rfl fun k _ => ?_
  have l49 : lidx_main_v49 (ix2 p (0 : Fin 1)) k = ix2 p k :=
    funext fun a => by match a with | ⟨0, _⟩ => rfl | ⟨1, _⟩ => rfl
  have r49 : ridx_main_v49 (ix2 p (0 : Fin 1)) k = ix2 k (0 : Fin 1) :=
    funext fun a => by match a with | ⟨0, _⟩ => rfl | ⟨1, _⟩ => rfl
  have i47 : idx_main_v47 (ix2 p k) = ix2 p (0 : Fin 1) :=
    funext fun a => by match a with | ⟨0, _⟩ => rfl | ⟨1, _⟩ => rfl
  have i46 : idx_main_v46 (ix2 p (0 : Fin 1)) = ix1 p := funext fun a => by match a with | ⟨0, _⟩ => rfl
  have i27 : idx_main_v27 (ix2 p k) = ix2 p (0 : Fin 1) :=
    funext fun a => by match a with | ⟨0, _⟩ => rfl | ⟨1, _⟩ => rfl
  have i26 : idx_main_v26 (ix2 p (0 : Fin 1)) = ix1 p := funext fun a => by match a with | ⟨0, _⟩ => rfl
  have i30 : idx_main_v30 (ix2 p k) = ix2 (0 : Fin 1) k :=
    funext fun a => by match a with | ⟨0, _⟩ => rfl | ⟨1, _⟩ => rfl
  have i29 : idx_main_v29 (ix2 (0 : Fin 1) k) = ix1 k := funext fun a => by match a with | ⟨0, _⟩ => rfl
  have l25 : lidx_main_v25 (ix2 p k) (0 : Fin 1) = ix2 p (0 : Fin 1) :=
    funext fun a => by match a with | ⟨0, _⟩ => rfl | ⟨1, _⟩ => rfl
  have r25 : ridx_main_v25 (ix2 p k) (0 : Fin 1) = ix2 (0 : Fin 1) k :=
    funext fun a => by match a with | ⟨0, _⟩ => rfl | ⟨1, _⟩ => rfl
  rw [l49, r49, val_main_v48_apply, val_main_v32_apply, val_main_v31_apply, val_main_v28_apply, val_main_v25_apply,
    Fin.sum_univ_one, l25, r25, val_main_v27_apply, i27, val_main_v26_apply, i26, inv_first_in, val_main_v30_apply, i30,
    val_main_v29_apply, i29, val_main_call0_v0_apply, val_main_call0_cst_apply, val_main_v47_apply, i47,
    val_main_v46_apply, i46, inv_second_out, degCol_apply, degCol_apply, shapeCast_a_1a_apply]
  simp only [Ideal.mulf_def, Ideal.addf_def, Ideal.maximumf_def, Ideal.ofBits_def]
  exact feature_eq _ _ _ _ _ _ _

/-! ## The last stage -/

theorem output_eq : val_main_v64 (F := Ideal) a0 a1 a2 a3 a4 a5 a6
    = output (val_main_v59 (F := Ideal) a0 a1 a2 a3 a4 a5) (degCol a2)
        (shapeCast Cert.KernelIdeal.S1x1 a6 Cert.KernelIdeal.Gen.shapeCasts_S1_S1x1) := by
  funext i
  obtain ⟨p, u, rfl⟩ : ∃ (p : Fin 100000) (u : Fin 1), i = ix2 p u := ⟨i 0, i 1, eq_ix2 i⟩
  have i60 : idx_main_v60 (ix2 p u) = ix1 p := funext fun a => by match a with | ⟨0, _⟩ => rfl
  have i63 : idx_main_v63 (ix2 p u) = ix2 (0 : Fin 1) (0 : Fin 1) :=
    funext fun a => by match a with | ⟨0, _⟩ => rfl | ⟨1, _⟩ => rfl
  have i62 : idx_main_v62 (ix2 (0 : Fin 1) (0 : Fin 1)) = ix1 (0 : Fin 1) :=
    funext fun a => by match a with | ⟨0, _⟩ => rfl
  rw [val_main_v64_apply, val_main_v61_apply, val_main_v60_apply, i60, inv_second_in, val_main_v63_apply, i63,
    val_main_v62_apply, i62]
  unfold output
  rw [degCol_apply, shapeCast_a_1a_apply]
  rfl

/-! ## The whole reference -/

/-- The reference's last stage is `result` of the seven argument arrays. -/
theorem reference_eq : val_main_v64 (F := Ideal) a0 a1 a2 a3 a4 a5 a6 = result a0 a1 a2 a3 a4 a5 a6 := by
  rw [output_eq, second_aggregate_eq, hidden_eq, first_aggregate_eq, scaled_eq]
  rfl

end Cert.ReferenceIdeal.Stages

end
-- ==== Proof.lean ====
/-
  The certificate's five claims for a two-layer graph convolution over 100000 nodes and 1600000 edges.

  The kernel program computes the degree counts, both aggregations (gather along the edges, scatter-add at their
  targets) on the host, and the dense per-node arithmetic in three kernel regions of 100 blocks of 1000 nodes each;
  the reference does everything on whole arrays. Over the extended reals both end at one function of the seven
  argument arrays, `Boundaries.result`: the kernel program by reading each region's output column off its run and the
  host stretches between them (`Boundaries.W6_result`), the reference stage by stage (`Stages.reference_eq`). The two
  programs apply the same gather and scatter-add to equal columns, so these are never opened; the only rearrangement
  is a triple product in the first layer, equal by commutativity and associativity, so no finiteness of the inputs is
  used. The ideal pass rewrote nothing, so there is nothing to preserve; the three frames are the programs' runs with
  the results forgotten.
-/
import proofs.«138436_j60833916780698_2_alg».proof.Defs
import proofs.«138436_j60833916780698_2_alg».proof.Proof.Gen.Kernel
import proofs.«138436_j60833916780698_2_alg».proof.Proof.Gen.Kernel.Skeleton
import proofs.«138436_j60833916780698_2_alg».proof.Proof.Gen.Kernel.Launch
import proofs.«138436_j60833916780698_2_alg».proof.Proof.Gen.Kernel.Points
import proofs.«138436_j60833916780698_2_alg».proof.Proof.Gen.Kernel.Frame
import proofs.«138436_j60833916780698_2_alg».proof.Proof.Gen.KernelIdeal
import proofs.«138436_j60833916780698_2_alg».proof.Proof.Gen.KernelIdeal.Skeleton
import proofs.«138436_j60833916780698_2_alg».proof.Proof.Gen.KernelIdeal.Launch
import proofs.«138436_j60833916780698_2_alg».proof.Proof.Gen.KernelIdeal.Points
import proofs.«138436_j60833916780698_2_alg».proof.Proof.Gen.KernelIdeal.Frame
import proofs.«138436_j60833916780698_2_alg».proof.Proof.Gen.ReferenceIdeal
import proofs.«138436_j60833916780698_2_alg».proof.Proof.Gen.Pre_finite_inputs
import proofs.«138436_j60833916780698_2_alg».proof.Proof.Gen.ReferenceIdeal.Run
import proofs.«138436_j60833916780698_2_alg».proof.Proof.Gen.ReferenceIdeal.Read
import proofs.«138436_j60833916780698_2_alg».proof.Proof.ResultRun
import proofs.«138436_j60833916780698_2_alg».proof.Proof.Boundaries
import proofs.«138436_j60833916780698_2_alg».proof.Proof.ReferenceStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with their result at `Boundaries.result` of those
    arguments: the kernel program's last boundary contents read at the result buffer, the reference's last stage. -/
theorem algebraic : Cert.algebraic_KernelIdeal_ReferenceIdeal := by
  intro m ρ m' ρ' _ hagree
  refine ⟨fun c => Cert.KernelIdeal.Boundaries.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Boundaries.W6_result m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v64_eq, Cert.ReferenceIdeal.Stages.reference_eq,
      (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
